-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 93
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x64, .f32⟩
  | .hbm, ⟨92, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunAll.lean ====
/-
  The idealized kernel's run with every buffer named.

  The program is three kernel regions among stretches of host operations. Its run, region by region, leaves every
  buffer that outlives a region at the contents obtained by folding through the program: a stretch of host operations
  applies its operations to the contents before it, a region replaces its arrays by what its write-backs leave. Here
  that fold is read at the end of the run for ALL those buffers at once, so that the value of the result can be read
  off it (the frame only keeps the argument arrays).
-/
import proofs.«143584_j55594056680296_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the end every buffer that
    outlives the regions holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, kept to what the value claim needs: the result array at the last fold's contents, the
    argument arrays as launched. -/
theorem run_result : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)
    (run_all m ρ)

end Cert.KernelIdeal.RunAll

end
-- ==== Proof.Spec.lean ====
/-
  One layer of the network as a function of whole arrays, over the extended reals.

  A layer maps node features `h` (50000 nodes, 128 features), the neighbourhood means `hn` of the same shape, two
  weight matrices `ws`, `wn` (128 by D) and a bias row `b` (1 by D) to the 50000 by D array whose entry (p, q) is

      (sum over k of h (p, k) * ws (k, q))  +  (sum over k of hn (p, k) * wn (k, q))  +  b (0, q),

  followed, in the first two layers, by the maximum with zero. The kernel adds the two products first and the bias
  last; the reference adds the bias to the first product and the second product last. Addition of extended reals is
  commutative and associative, so the two orders agree at every entry, infinite entries included: no finiteness
  is needed.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Sage

open Idealize.ShloMosaic Idealize.ShloMosaic.ValueIdx

/-- The affine part of a layer: both matrix products and the bias row, entry by entry. -/
def lin {D : ℕ} (h hn : FVec Ideal (⟨2, ![50000, 128]⟩ : Shape) .f32) (ws wn : FVec Ideal (⟨2, ![128, D]⟩ : Shape) .f32)
    (b : FVec Ideal (⟨2, ![1, D]⟩ : Shape) .f32) : FVec Ideal (⟨2, ![50000, D]⟩ : Shape) .f32 :=
  fun i => (∑ k : Fin 128, h (ix2 (i 0) k) * ws (ix2 k (i 1))) + (∑ k : Fin 128, hn (ix2 (i 0) k) * wn (ix2 k (i 1)))
    + b (ix2 (0 : Fin 1) (i 1))

/-- The maximum with zero, entry by entry (zero spelt as the float word the programs print). -/
def relu {s : Shape} (x : FVec Ideal s .f32) : FVec Ideal s .f32 :=
  fun i => max (x i) (Ideal.ofBits .f32 0x00000000#32)

theorem lin_apply {D : ℕ} (h hn : FVec Ideal (⟨2, ![50000, 128]⟩ : Shape) .f32) (ws wn : FVec Ideal (⟨2, ![128, D]⟩ : Shape) .f32)
    (b : FVec Ideal (⟨2, ![1, D]⟩ : Shape) .f32) (p : Fin 50000) (q : Fin D) :
    lin h hn ws wn b (ix2 p q) = (∑ k : Fin 128, h (ix2 p k) * ws (ix2 k q)) + (∑ k : Fin 128, hn (ix2 p k) * wn (ix2 k q))
      + b (ix2 (0 : Fin 1) q) := rfl

theorem relu_apply {s : Shape} (x : FVec Ideal s .f32) (i : s.Idx) : relu x i = max (x i) (Ideal.ofBits .f32 0x00000000#32) := rfl

theorem relu_lin_apply {D : ℕ} (h hn : FVec Ideal (⟨2, ![50000, 128]⟩ : Shape) .f32) (ws wn : FVec Ideal (⟨2, ![128, D]⟩ : Shape) .f32)
    (b : FVec Ideal (⟨2, ![1, D]⟩ : Shape) .f32) (p : Fin 50000) (q : Fin D) :
    relu (lin h hn ws wn b) (ix2 p q) = max ((∑ k : Fin 128, h (ix2 p k) * ws (ix2 k q)) + (∑ k : Fin 128, hn (ix2 p k) * wn (ix2 k q))
      + b (ix2 (0 : Fin 1) q)) (Ideal.ofBits .f32 0x00000000#32) := rfl

/-- Two entries of a layer built from termwise equal factors are equal. -/
theorem lin_entry_congr {a a' an an' w w' wn wn' : Fin 128 → EReal} {b b' : EReal}
    (h1 : ∀ k, a k = a' k) (h2 : ∀ k, w k = w' k) (h3 : ∀ k, an k = an' k) (h4 : ∀ k, wn k = wn' k) (h5 : b = b') :
    (∑ k : Fin 128, a k * w k) + (∑ k : Fin 128, an k * wn k) + b
      = (∑ k : Fin 128, a' k * w' k) + (∑ k : Fin 128, an' k * wn' k) + b' := by
  simp only [h1, h2, h3, h4, h5]

theorem relu_entry_congr {a a' an an' w w' wn wn' : Fin 128 → EReal} {b b' : EReal}
    (h1 : ∀ k, a k = a' k) (h2 : ∀ k, w k = w' k) (h3 : ∀ k, an k = an' k) (h4 : ∀ k, wn k = wn' k) (h5 : b = b') (z : EReal) :
    max ((∑ k : Fin 128, a k * w k) + (∑ k : Fin 128, an k * wn k) + b) z
      = max ((∑ k : Fin 128, a' k * w' k) + (∑ k : Fin 128, an' k * wn' k) + b') z := by
  rw [lin_entry_congr h1 h2 h3 h4 h5]

end Cert.Sage

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.Layer0.lean ====
/-
  The first kernel region computes one layer of the network, whole.

  The region runs its body at ten grid points. Point t reads rows 5000 t … 5000 t + 4999 of the node features and of
  the neighbourhood means, both weight matrices and the bias row whole, and writes rows 5000 t … 5000 t + 4999 of the
  result: entry (r, q) of that block is the sum over k of feature (r, k) times weight (k, q), plus the same sum for the
  neighbourhood means and their weights, plus bias (0, q), and then the maximum with zero. A row of the result depends only on
  the same row of the two inputs, so each block is the restriction of the layer of the whole arrays, and the ten
  blocks tile the 50000 rows: the array the region leaves is the layer of the arrays it found.
-/
import proofs.«143584_j55594056680296_1_alg».proof.Proof.Gen.KernelIdeal.Frame
import proofs.«143584_j55594056680296_1_alg».proof.Proof.Spec
import proofs.«143584_j55594056680296_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's operand indices -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a block of 5000 rows with a weight matrix, into zero, at entry (p, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.LibMatmul.matmul_zero_ix2 dot_S5000x128_S128x128_S5000x128_1_0_0_1_n_n rfl rfl lhs_0 lhs_1 rhs_0 rhs_1 none l r p q

/-! ## The body's arithmetic at one entry of a block -/

/-- Entry (p, q) of what the body stores, from the five blocks it loads. -/
theorem pay_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) (Ideal.ofBits .f32 0x00000000#32) := by
  unfold k0_pay1
  simp only [shapeCast_self]
  simp only [maximumf_apply, broadcast_apply, addf_apply, mm_apply, broadcastTo_1b_ab_apply, truncf_apply]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at a grid point: the two row-blocked inputs move with the output's block along
    the rows, the weights and the bias stay at the origin, and the output's block index is below ten. -/
theorem block_positions : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem block_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the layer of the arrays the region found. -/
theorem flushed_eq (c : Dev nD) (t : Fin cfg0.N) :
    (dat0 V c).flushed 5 t = ((cfg0.win 5).blk t).view.read (Elt Ideal) (Sage.relu (Sage.lin (D := 128) (V c main_arg0) (V c main_v18) (V c main_arg3) (V c main_arg4) (V c main_v19))) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e5, e51⟩ := block_positions t
  funext j
  have hj0 : (j 0).val < 5000 := (j 0).isLt
  have hj1 : (j 1).val < 128 := (j 1).isLt
  refine ((congrArg (k0_pay1 (F := Ideal) (iblk0 V c 0 t) (iblk0 V c 1 t) (iblk0 V c 2 t) (iblk0 V c 3 t) (iblk0 V c 4 t)) (eq_ix2 (n0 := 5000) (n1 := 128) j)).trans
    (pay_apply _ _ _ _ _ (j 0) (j 1))).trans ?_
  show _ = (Sage.relu (Sage.lin (D := 128) (V c main_arg0) (V c main_v18) (V c main_arg3) (V c main_arg4) (V c main_v19))) (((cfg0.win 5).blk t).view.emb j)
  refine Eq.trans ?_ (congrArg (Sage.relu (Sage.lin (D := 128) (V c main_arg0) (V c main_v18) (V c main_arg3) (V c main_arg4) (V c main_v19))) (eq_ix2 (n0 := 50000) (n1 := 128) (((cfg0.win 5).blk t).view.emb j))).symm
  refine Eq.trans ?_ (Sage.relu_lin_apply (D := 128) (V c main_arg0) (V c main_v18) (V c main_arg3) (V c main_arg4) (V c main_v19) ((((cfg0.win 5).blk t).view.emb j) 0) ((((cfg0.win 5).blk t).view.emb j) 1)).symm
  have eh : ∀ k : Fin 128, iblk0 V c 0 t (ix2 (j 0) k) = V c main_arg0 (ix2 ((((cfg0.win 5).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have ehn : ∀ k : Fin 128, iblk0 V c 1 t (ix2 (j 0) k) = V c main_v18 (ix2 ((((cfg0.win 5).blk t).view.emb j) 0) k) := fun k => by
    show V c main_v18 (((cfg0.win 1).blk t).view.emb (ix2 (j 0) k)) = _
    refine congrArg (V c main_v18) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have ews : ∀ k : Fin 128, iblk0 V c 2 t (ix2 k (j 1)) = V c main_arg3 (ix2 k ((((cfg0.win 5).blk t).view.emb j) 1)) := fun k => by
    show V c main_arg3 (((cfg0.win 2).blk t).view.emb (ix2 k (j 1))) = _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have ewn : ∀ k : Fin 128, iblk0 V c 3 t (ix2 k (j 1)) = V c main_arg4 (ix2 k ((((cfg0.win 5).blk t).view.emb j) 1)) := fun k => by
    show V c main_arg4 (((cfg0.win 3).blk t).view.emb (ix2 k (j 1))) = _
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have eb : iblk0 V c 4 t (ix2 (0 : Fin 1) (j 1)) = V c main_v19 (ix2 (0 : Fin 1) ((((cfg0.win 5).blk t).view.emb j) 1)) := by
    show V c main_v19 (((cfg0.win 4).blk t).view.emb (ix2 (0 : Fin 1) (j 1))) = _
    refine congrArg (V c main_v19) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  exact Sage.relu_entry_congr eh ews ehn ewn eb _

/-- An index of the result array is in point `t`'s block iff each coordinate is in the block's range. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- The ten blocks cover the array: row r is in block r / 5000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY the region leaves is the layer of the arrays it found. -/
theorem final (c : Dev nD) : (dat0 V c).arrAt 5 cfg0.N = Sage.relu (Sage.lin (D := 128) (V c main_arg0) (V c main_v18) (V c main_arg3) (V c main_arg4) (V c main_v19)) :=
  (dat0 V c).arrAt_eq_of_cover 5 _ (fun t _ => flushed_eq V c t) (covered)

end Cert.KernelIdeal.Layer0

end
-- ==== Proof.Layer1.lean ====
/-
  The second kernel region computes one layer of the network, whole.

  The region runs its body at ten grid points. Point t reads rows 5000 t … 5000 t + 4999 of the node features and of
  the neighbourhood means, both weight matrices and the bias row whole, and writes rows 5000 t … 5000 t + 4999 of the
  result: entry (r, q) of that block is the sum over k of feature (r, k) times weight (k, q), plus the same sum for the
  neighbourhood means and their weights, plus bias (0, q), and then the maximum with zero. A row of the result depends only on
  the same row of the two inputs, so each block is the restriction of the layer of the whole arrays, and the ten
  blocks tile the 50000 rows: the array the region leaves is the layer of the arrays it found.
-/
import proofs.«143584_j55594056680296_1_alg».proof.Proof.Gen.KernelIdeal.Frame
import proofs.«143584_j55594056680296_1_alg».proof.Proof.Spec
import proofs.«143584_j55594056680296_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's operand indices -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a block of 5000 rows with a weight matrix, into zero, at entry (p, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.LibMatmul.matmul_zero_ix2 dot_S5000x128_S128x128_S5000x128_1_0_0_1_n_n rfl rfl lhs_0 lhs_1 rhs_0 rhs_1 none l r p q

/-! ## The body's arithmetic at one entry of a block -/

/-- Entry (p, q) of what the body stores, from the five blocks it loads. -/
theorem pay_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) (Ideal.ofBits .f32 0x00000000#32) := by
  unfold k1_pay1
  simp only [shapeCast_self]
  simp only [maximumf_apply, broadcast_apply, addf_apply, mm_apply, broadcastTo_1b_ab_apply, truncf_apply]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at a grid point: the two row-blocked inputs move with the output's block along
    the rows, the weights and the bias stay at the origin, and the output's block index is below ten. -/
theorem block_positions : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem block_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the layer of the arrays the region found. -/
theorem flushed_eq (c : Dev nD) (t : Fin cfg1.N) :
    (dat1 V c).flushed 5 t = ((cfg1.win 5).blk t).view.read (Elt Ideal) (Sage.relu (Sage.lin (D := 128) (V c main_v20) (V c main_v39) (V c main_arg6) (V c main_arg7) (V c main_v40))) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e5, e51⟩ := block_positions t
  funext j
  have hj0 : (j 0).val < 5000 := (j 0).isLt
  have hj1 : (j 1).val < 128 := (j 1).isLt
  refine ((congrArg (k1_pay1 (F := Ideal) (iblk1 V c 0 t) (iblk1 V c 1 t) (iblk1 V c 2 t) (iblk1 V c 3 t) (iblk1 V c 4 t)) (eq_ix2 (n0 := 5000) (n1 := 128) j)).trans
    (pay_apply _ _ _ _ _ (j 0) (j 1))).trans ?_
  show _ = (Sage.relu (Sage.lin (D := 128) (V c main_v20) (V c main_v39) (V c main_arg6) (V c main_arg7) (V c main_v40))) (((cfg1.win 5).blk t).view.emb j)
  refine Eq.trans ?_ (congrArg (Sage.relu (Sage.lin (D := 128) (V c main_v20) (V c main_v39) (V c main_arg6) (V c main_arg7) (V c main_v40))) (eq_ix2 (n0 := 50000) (n1 := 128) (((cfg1.win 5).blk t).view.emb j))).symm
  refine Eq.trans ?_ (Sage.relu_lin_apply (D := 128) (V c main_v20) (V c main_v39) (V c main_arg6) (V c main_arg7) (V c main_v40) ((((cfg1.win 5).blk t).view.emb j) 0) ((((cfg1.win 5).blk t).view.emb j) 1)).symm
  have eh : ∀ k : Fin 128, iblk1 V c 0 t (ix2 (j 0) k) = V c main_v20 (ix2 ((((cfg1.win 5).blk t).view.emb j) 0) k) := fun k => by
    show V c main_v20 (((cfg1.win 0).blk t).view.emb (ix2 (j 0) k)) = _
    refine congrArg (V c main_v20) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have ehn : ∀ k : Fin 128, iblk1 V c 1 t (ix2 (j 0) k) = V c main_v39 (ix2 ((((cfg1.win 5).blk t).view.emb j) 0) k) := fun k => by
    show V c main_v39 (((cfg1.win 1).blk t).view.emb (ix2 (j 0) k)) = _
    refine congrArg (V c main_v39) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have ews : ∀ k : Fin 128, iblk1 V c 2 t (ix2 k (j 1)) = V c main_arg6 (ix2 k ((((cfg1.win 5).blk t).view.emb j) 1)) := fun k => by
    show V c main_arg6 (((cfg1.win 2).blk t).view.emb (ix2 k (j 1))) = _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have ewn : ∀ k : Fin 128, iblk1 V c 3 t (ix2 k (j 1)) = V c main_arg7 (ix2 k ((((cfg1.win 5).blk t).view.emb j) 1)) := fun k => by
    show V c main_arg7 (((cfg1.win 3).blk t).view.emb (ix2 k (j 1))) = _
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have eb : iblk1 V c 4 t (ix2 (0 : Fin 1) (j 1)) = V c main_v40 (ix2 (0 : Fin 1) ((((cfg1.win 5).blk t).view.emb j) 1)) := by
    show V c main_v40 (((cfg1.win 4).blk t).view.emb (ix2 (0 : Fin 1) (j 1))) = _
    refine congrArg (V c main_v40) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  exact Sage.relu_entry_congr eh ews ehn ewn eb _

/-- An index of the result array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The ten blocks cover the array: row r is in block r / 5000. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := block_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY the region leaves is the layer of the arrays it found. -/
theorem final (c : Dev nD) : (dat1 V c).arrAt 5 cfg1.N = Sage.relu (Sage.lin (D := 128) (V c main_v20) (V c main_v39) (V c main_arg6) (V c main_arg7) (V c main_v40)) :=
  (dat1 V c).arrAt_eq_of_cover 5 _ (fun t _ => flushed_eq V c t) (covered)

end Cert.KernelIdeal.Layer1

end
-- ==== Proof.Layer2.lean ====
/-
  The third kernel region computes one layer of the network, whole.

  The region runs its body at ten grid points. Point t reads rows 5000 t … 5000 t + 4999 of the node features and of
  the neighbourhood means, both weight matrices and the bias row whole, and writes rows 5000 t … 5000 t + 4999 of the
  result: entry (r, q) of that block is the sum over k of feature (r, k) times weight (k, q), plus the same sum for the
  neighbourhood means and their weights, plus bias (0, q). A row of the result depends only on
  the same row of the two inputs, so each block is the restriction of the layer of the whole arrays, and the ten
  blocks tile the 50000 rows: the array the region leaves is the layer of the arrays it found.
-/
import proofs.«143584_j55594056680296_1_alg».proof.Proof.Gen.KernelIdeal.Frame
import proofs.«143584_j55594056680296_1_alg».proof.Proof.Spec
import proofs.«143584_j55594056680296_1_alg».proof.Proof.LibMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's operand indices -/

theorem lhs_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product of a block of 5000 rows with a weight matrix, into zero, at entry (p, q). -/
theorem mm_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) :=
  Cert.LibMatmul.matmul_zero_ix2 dot_S5000x128_S128x64_S5000x64_1_0_0_1_n_n rfl rfl lhs_0 lhs_1 rhs_0 rhs_1 none l r p q

/-! ## The body's arithmetic at one entry of a block -/

/-- Entry (p, q) of what the body stores, from the five blocks it loads. -/
theorem pay_apply (x0 x1 : Vec Ideal S5000x128 .f32) (x2 x3 : Vec Ideal S128x64 .f32) (x4 : Vec Ideal S1x64 .f32)
    (p : Fin 5000) (q : Fin 64) :
    k2_pay1 (F := Ideal) x0 x1 x2 x3 x4 (ix2 p q)
      = (∑ k : Fin 128, x0 (ix2 p k) * x2 (ix2 k q)) + (∑ k : Fin 128, x1 (ix2 p k) * x3 (ix2 k q))
          + x4 (ix2 (0 : Fin 1) q) := by
  unfold k2_pay1
  simp only [shapeCast_self]
  simp only [addf_apply, mm_apply, broadcastTo_1b_ab_apply, truncf_apply]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at a grid point: the two row-blocked inputs move with the output's block along
    the rows, the weights and the bias stay at the origin, and the output's block index is below ten. -/
theorem block_positions : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every one of the ten row blocks is some point's. -/
theorem block_onto : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the layer of the arrays the region found. -/
theorem flushed_eq (c : Dev nD) (t : Fin cfg2.N) :
    (dat2 V c).flushed 5 t = ((cfg2.win 5).blk t).view.read (Elt Ideal) (Sage.lin (D := 64) (V c main_v41) (V c main_v60) (V c main_arg9) (V c main_arg10) (V c main_v61)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x64) origin, View.ld_unit_zero (S := S1x64) origin]
  obtain ⟨e00, e01, e10, e11, e20, e21, e30, e31, e40, e41, e5, e51⟩ := block_positions t
  funext j
  have hj0 : (j 0).val < 5000 := (j 0).isLt
  have hj1 : (j 1).val < 64 := (j 1).isLt
  refine ((congrArg (k2_pay1 (F := Ideal) (iblk2 V c 0 t) (iblk2 V c 1 t) (iblk2 V c 2 t) (iblk2 V c 3 t) (iblk2 V c 4 t)) (eq_ix2 (n0 := 5000) (n1 := 64) j)).trans
    (pay_apply _ _ _ _ _ (j 0) (j 1))).trans ?_
  show _ = (Sage.lin (D := 64) (V c main_v41) (V c main_v60) (V c main_arg9) (V c main_arg10) (V c main_v61)) (((cfg2.win 5).blk t).view.emb j)
  refine Eq.trans ?_ (congrArg (Sage.lin (D := 64) (V c main_v41) (V c main_v60) (V c main_arg9) (V c main_arg10) (V c main_v61)) (eq_ix2 (n0 := 50000) (n1 := 64) (((cfg2.win 5).blk t).view.emb j))).symm
  refine Eq.trans ?_ (Sage.lin_apply (D := 64) (V c main_v41) (V c main_v60) (V c main_arg9) (V c main_arg10) (V c main_v61) ((((cfg2.win 5).blk t).view.emb j) 0) ((((cfg2.win 5).blk t).view.emb j) 1)).symm
  have eh : ∀ k : Fin 128, iblk2 V c 0 t (ix2 (j 0) k) = V c main_v41 (ix2 ((((cfg2.win 5).blk t).view.emb j) 0) k) := fun k => by
    show V c main_v41 (((cfg2.win 0).blk t).view.emb (ix2 (j 0) k)) = _
    refine congrArg (V c main_v41) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have ehn : ∀ k : Fin 128, iblk2 V c 1 t (ix2 (j 0) k) = V c main_v60 (ix2 ((((cfg2.win 5).blk t).view.emb j) 0) k) := fun k => by
    show V c main_v60 (((cfg2.win 1).blk t).view.emb (ix2 (j 0) k)) = _
    refine congrArg (V c main_v60) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  have ews : ∀ k : Fin 128, iblk2 V c 2 t (ix2 k (j 1)) = V c main_arg9 (ix2 k ((((cfg2.win 5).blk t).view.emb j) 1)) := fun k => by
    show V c main_arg9 (((cfg2.win 2).blk t).view.emb (ix2 k (j 1))) = _
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  have ewn : ∀ k : Fin 128, iblk2 V c 3 t (ix2 k (j 1)) = V c main_arg10 (ix2 k ((((cfg2.win 5).blk t).view.emb j) 1)) := fun k => by
    show V c main_arg10 (((cfg2.win 3).blk t).view.emb (ix2 k (j 1))) = _
    refine congrArg (V c main_arg10) (funext fun a => Fin.ext ?_)
    match a with
    | ⟨0, _⟩ => show win2_3.index t (0 : Fin 2) * 128 + 1 * k.val = k.val; omega
    | ⟨1, _⟩ => show win2_3.index t (1 : Fin 2) * 64 + 1 * (j 1).val = win2_5.index t (1 : Fin 2) * 64 + 1 * (j 1).val; omega
  have eb : iblk2 V c 4 t (ix2 (0 : Fin 1) (j 1)) = V c main_v61 (ix2 (0 : Fin 1) ((((cfg2.win 5).blk t).view.emb j) 1)) := by
    show V c main_v61 (((cfg2.win 4).blk t).view.emb (ix2 (0 : Fin 1) (j 1))) = _
    refine congrArg (V c main_v61) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  exact Sage.lin_entry_congr eh ews ehn ewn eb

/-- An index of the result array is in point `t`'s block iff each coordinate is in the block's range. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v62).slice (win2_5.rect t)).set ↔ _
  rw [View.set_slice_whole, Rect.mem_set_unit]
  exact Iff.rfl

/-- The ten blocks cover the array: row r is in block r / 5000. -/
theorem covered (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := block_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE ARRAY the region leaves is the layer of the arrays it found. -/
theorem final (c : Dev nD) : (dat2 V c).arrAt 5 cfg2.N = Sage.lin (D := 64) (V c main_v41) (V c main_v60) (V c main_arg9) (V c main_arg10) (V c main_v61) :=
  (dat2 V c).arrAt_eq_of_cover 5 _ (fun t _ => flushed_eq V c t) (covered)

end Cert.KernelIdeal.Layer2

end
-- ==== Proof.Chain.lean ====
/-
  The idealized kernel's result as one function of the argument arrays.

  Between the regions the program computes, on the host, the neighbourhood means of the current node features:
  the rows of the features gathered at the (wrapped) source indices, summed into the rows named by the destination
  indices, and divided row by row by the in-degree (the count of edges into the node, at least one). Each region then
  computes a layer from the current features, their neighbourhood means, its weights and its bias row. Folding through
  the program from the launch memory, the result array is the three layers composed, each hidden layer feeding
  both the next layer and the next aggregation.
-/
import proofs.«143584_j55594056680296_1_alg».proof.Proof.Gen.KernelIdeal.Frame
import proofs.«143584_j55594056680296_1_alg».proof.Proof.Layer0
import proofs.«143584_j55594056680296_1_alg».proof.Proof.Layer1
import proofs.«143584_j55594056680296_1_alg».proof.Proof.Layer2
import proofs.«143584_j55594056680296_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- The neighbourhood means of node features `h` along the edges (src, dst): gather the rows of `h` at the source
    indices (a negative index wrapped by the node count), add them into the rows named by the destination indices,
    and divide each row by the node's in-degree, the degree taken as at least one. -/
def agg (h : (⟨S50000x128, .f32⟩ : BufTy).Contents (Elt Ideal)) (src dst : (⟨S800000, .i32⟩ : BufTy).Contents (Elt Ideal)) : (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- A bias vector as a one-row matrix. -/
def row128 (b : (⟨S128, .f32⟩ : BufTy).Contents (Elt Ideal)) : (⟨S1x128, .f32⟩ : BufTy).Contents (Elt Ideal) := shapeCast S1x128 b shapeCasts_S128_S1x128
def row64 (b : (⟨S64, .f32⟩ : BufTy).Contents (Elt Ideal)) : (⟨S1x64, .f32⟩ : BufTy).Contents (Elt Ideal) := shapeCast S1x64 b shapeCasts_S64_S1x64

/-- The first hidden layer. -/
def hidden1 (a0 : (⟨S50000x128, .f32⟩ : BufTy).Contents (Elt Ideal)) (a1 a2 : (⟨S800000, .i32⟩ : BufTy).Contents (Elt Ideal)) (a3 a4 : (⟨S128x128, .f32⟩ : BufTy).Contents (Elt Ideal)) (a5 : (⟨S128, .f32⟩ : BufTy).Contents (Elt Ideal)) :
    (⟨S50000x128, .f32⟩ : BufTy).Contents (Elt Ideal) :=
  Sage.relu (Sage.lin (D := 128) a0 (agg a0 a1 a2) a3 a4 (row128 a5))

/-- The second hidden layer, of the first and its neighbourhood means. -/
def hidden2 (h1 : (⟨S50000x128, .f32⟩ : BufTy).Contents (Elt Ideal)) (a1 a2 : (⟨S800000, .i32⟩ : BufTy).Contents (Elt Ideal)) (a6 a7 : (⟨S128x128, .f32⟩ : BufTy).Contents (Elt Ideal)) (a8 : (⟨S128, .f32⟩ : BufTy).Contents (Elt Ideal)) :
    (⟨S50000x128, .f32⟩ : BufTy).Contents (Elt Ideal) :=
  Sage.relu (Sage.lin (D := 128) h1 (agg h1 a1 a2) a6 a7 (row128 a8))

/-- The output layer, of the second hidden layer and its neighbourhood means. -/
def output (h2 : (⟨S50000x128, .f32⟩ : BufTy).Contents (Elt Ideal)) (a1 a2 : (⟨S800000, .i32⟩ : BufTy).Contents (Elt Ideal)) (a9 a10 : (⟨S128x64, .f32⟩ : BufTy).Contents (Elt Ideal)) (a11 : (⟨S64, .f32⟩ : BufTy).Contents (Elt Ideal)) :
    (⟨S50000x64, .f32⟩ : BufTy).Contents (Elt Ideal) :=
  Sage.lin (D := 64) h2 (agg h2 a1 a2) a9 a10 (row64 a11)

variable (m : (ℓ : Loc nD τ sig) → Buf (Elt Ideal) ℓ) (ρ : Dev nD → PrngReg)

/-! ## The argument arrays through the fold: no host operation and no region writes one -/

theorem w1_main_arg0 (c : Dev nD) : W1 m ρ c (Proc.devRef .tc main_arg0) = m ((c : Thread nD τ).loc main_arg0) := by
  show StableHlo.after hostOps0 (W0 m ρ c) (Proc.devRef .tc main_arg0) = _
  after_results
theorem w1_main_arg1 (c : Dev nD) : W1 m ρ c (Proc.devRef .tc main_arg1) = m ((c : Thread nD τ).loc main_arg1) := by
  show StableHlo.after hostOps0 (W0 m ρ c) (Proc.devRef .tc main_arg1) = _
  after_results
theorem w1_main_arg2 (c : Dev nD) : W1 m ρ c (Proc.devRef .tc main_arg2) = m ((c : Thread nD τ).loc main_arg2) := by
  show StableHlo.after hostOps0 (W0 m ρ c) (Proc.devRef .tc main_arg2) = _
  after_results
theorem w1_main_arg3 (c : Dev nD) : W1 m ρ c (Proc.devRef .tc main_arg3) = m ((c : Thread nD τ).loc main_arg3) := by
  show StableHlo.after hostOps0 (W0 m ρ c) (Proc.devRef .tc main_arg3) = _
  after_results
theorem w1_main_arg4 (c : Dev nD) : W1 m ρ c (Proc.devRef .tc main_arg4) = m ((c : Thread nD τ).loc main_arg4) := by
  show StableHlo.after hostOps0 (W0 m ρ c) (Proc.devRef .tc main_arg4) = _
  after_results
theorem w1_main_arg5 (c : Dev nD) : W1 m ρ c (Proc.devRef .tc main_arg5) = m ((c : Thread nD τ).loc main_arg5) := by
  show StableHlo.after hostOps0 (W0 m ρ c) (Proc.devRef .tc main_arg5) = _
  after_results
theorem w1_main_arg6 (c : Dev nD) : W1 m ρ c (Proc.devRef .tc main_arg6) = m ((c : Thread nD τ).loc main_arg6) := by
  show StableHlo.after hostOps0 (W0 m ρ c) (Proc.devRef .tc main_arg6) = _
  after_results
theorem w1_main_arg7 (c : Dev nD) : W1 m ρ c (Proc.devRef .tc main_arg7) = m ((c : Thread nD τ).loc main_arg7) := by
  show StableHlo.after hostOps0 (W0 m ρ c) (Proc.devRef .tc main_arg7) = _
  after_results
theorem w1_main_arg8 (c : Dev nD) : W1 m ρ c (Proc.devRef .tc main_arg8) = m ((c : Thread nD τ).loc main_arg8) := by
  show StableHlo.after hostOps0 (W0 m ρ c) (Proc.devRef .tc main_arg8) = _
  after_results
theorem w1_main_arg9 (c : Dev nD) : W1 m ρ c (Proc.devRef .tc main_arg9) = m ((c : Thread nD τ).loc main_arg9) := by
  show StableHlo.after hostOps0 (W0 m ρ c) (Proc.devRef .tc main_arg9) = _
  after_results
theorem w1_main_arg10 (c : Dev nD) : W1 m ρ c (Proc.devRef .tc main_arg10) = m ((c : Thread nD τ).loc main_arg10) := by
  show StableHlo.after hostOps0 (W0 m ρ c) (Proc.devRef .tc main_arg10) = _
  after_results
theorem w1_main_arg11 (c : Dev nD) : W1 m ρ c (Proc.devRef .tc main_arg11) = m ((c : Thread nD τ).loc main_arg11) := by
  show StableHlo.after hostOps0 (W0 m ρ c) (Proc.devRef .tc main_arg11) = _
  after_results
theorem w2_main_arg1 (c : Dev nD) : W2 m ρ c (Proc.devRef .tc main_arg1) = m ((c : Thread nD τ).loc main_arg1) :=
  (W2_of_ne m ρ c main_arg1 (by decide)).trans (w1_main_arg1 m ρ c)
theorem w2_main_arg2 (c : Dev nD) : W2 m ρ c (Proc.devRef .tc main_arg2) = m ((c : Thread nD τ).loc main_arg2) :=
  (W2_of_ne m ρ c main_arg2 (by decide)).trans (w1_main_arg2 m ρ c)
theorem w2_main_arg6 (c : Dev nD) : W2 m ρ c (Proc.devRef .tc main_arg6) = m ((c : Thread nD τ).loc main_arg6) :=
  (W2_of_ne m ρ c main_arg6 (by decide)).trans (w1_main_arg6 m ρ c)
theorem w2_main_arg7 (c : Dev nD) : W2 m ρ c (Proc.devRef .tc main_arg7) = m ((c : Thread nD τ).loc main_arg7) :=
  (W2_of_ne m ρ c main_arg7 (by decide)).trans (w1_main_arg7 m ρ c)
theorem w2_main_arg8 (c : Dev nD) : W2 m ρ c (Proc.devRef .tc main_arg8) = m ((c : Thread nD τ).loc main_arg8) :=
  (W2_of_ne m ρ c main_arg8 (by decide)).trans (w1_main_arg8 m ρ c)
theorem w2_main_arg9 (c : Dev nD) : W2 m ρ c (Proc.devRef .tc main_arg9) = m ((c : Thread nD τ).loc main_arg9) :=
  (W2_of_ne m ρ c main_arg9 (by decide)).trans (w1_main_arg9 m ρ c)
theorem w2_main_arg10 (c : Dev nD) : W2 m ρ c (Proc.devRef .tc main_arg10) = m ((c : Thread nD τ).loc main_arg10) :=
  (W2_of_ne m ρ c main_arg10 (by decide)).trans (w1_main_arg10 m ρ c)
theorem w2_main_arg11 (c : Dev nD) : W2 m ρ c (Proc.devRef .tc main_arg11) = m ((c : Thread nD τ).loc main_arg11) :=
  (W2_of_ne m ρ c main_arg11 (by decide)).trans (w1_main_arg11 m ρ c)
theorem w3_main_arg1 (c : Dev nD) : W3 m ρ c (Proc.devRef .tc main_arg1) = m ((c : Thread nD τ).loc main_arg1) := by
  show StableHlo.after hostOps1 (W2 m ρ c) (Proc.devRef .tc main_arg1) = _
  after_results; exact w2_main_arg1 m ρ c
theorem w3_main_arg2 (c : Dev nD) : W3 m ρ c (Proc.devRef .tc main_arg2) = m ((c : Thread nD τ).loc main_arg2) := by
  show StableHlo.after hostOps1 (W2 m ρ c) (Proc.devRef .tc main_arg2) = _
  after_results; exact w2_main_arg2 m ρ c
theorem w3_main_arg6 (c : Dev nD) : W3 m ρ c (Proc.devRef .tc main_arg6) = m ((c : Thread nD τ).loc main_arg6) := by
  show StableHlo.after hostOps1 (W2 m ρ c) (Proc.devRef .tc main_arg6) = _
  after_results; exact w2_main_arg6 m ρ c
theorem w3_main_arg7 (c : Dev nD) : W3 m ρ c (Proc.devRef .tc main_arg7) = m ((c : Thread nD τ).loc main_arg7) := by
  show StableHlo.after hostOps1 (W2 m ρ c) (Proc.devRef .tc main_arg7) = _
  after_results; exact w2_main_arg7 m ρ c
theorem w3_main_arg8 (c : Dev nD) : W3 m ρ c (Proc.devRef .tc main_arg8) = m ((c : Thread nD τ).loc main_arg8) := by
  show StableHlo.after hostOps1 (W2 m ρ c) (Proc.devRef .tc main_arg8) = _
  after_results; exact w2_main_arg8 m ρ c
theorem w3_main_arg9 (c : Dev nD) : W3 m ρ c (Proc.devRef .tc main_arg9) = m ((c : Thread nD τ).loc main_arg9) := by
  show StableHlo.after hostOps1 (W2 m ρ c) (Proc.devRef .tc main_arg9) = _
  after_results; exact w2_main_arg9 m ρ c
theorem w3_main_arg10 (c : Dev nD) : W3 m ρ c (Proc.devRef .tc main_arg10) = m ((c : Thread nD τ).loc main_arg10) := by
  show StableHlo.after hostOps1 (W2 m ρ c) (Proc.devRef .tc main_arg10) = _
  after_results; exact w2_main_arg10 m ρ c
theorem w3_main_arg11 (c : Dev nD) : W3 m ρ c (Proc.devRef .tc main_arg11) = m ((c : Thread nD τ).loc main_arg11) := by
  show StableHlo.after hostOps1 (W2 m ρ c) (Proc.devRef .tc main_arg11) = _
  after_results; exact w2_main_arg11 m ρ c
theorem w4_main_arg1 (c : Dev nD) : W4 m ρ c (Proc.devRef .tc main_arg1) = m ((c : Thread nD τ).loc main_arg1) :=
  (W4_of_ne m ρ c main_arg1 (by decide)).trans (w3_main_arg1 m ρ c)
theorem w4_main_arg2 (c : Dev nD) : W4 m ρ c (Proc.devRef .tc main_arg2) = m ((c : Thread nD τ).loc main_arg2) :=
  (W4_of_ne m ρ c main_arg2 (by decide)).trans (w3_main_arg2 m ρ c)
theorem w4_main_arg9 (c : Dev nD) : W4 m ρ c (Proc.devRef .tc main_arg9) = m ((c : Thread nD τ).loc main_arg9) :=
  (W4_of_ne m ρ c main_arg9 (by decide)).trans (w3_main_arg9 m ρ c)
theorem w4_main_arg10 (c : Dev nD) : W4 m ρ c (Proc.devRef .tc main_arg10) = m ((c : Thread nD τ).loc main_arg10) :=
  (W4_of_ne m ρ c main_arg10 (by decide)).trans (w3_main_arg10 m ρ c)
theorem w4_main_arg11 (c : Dev nD) : W4 m ρ c (Proc.devRef .tc main_arg11) = m ((c : Thread nD τ).loc main_arg11) :=
  (W4_of_ne m ρ c main_arg11 (by decide)).trans (w3_main_arg11 m ρ c)
theorem w5_main_arg1 (c : Dev nD) : W5 m ρ c (Proc.devRef .tc main_arg1) = m ((c : Thread nD τ).loc main_arg1) := by
  show StableHlo.after hostOps2 (W4 m ρ c) (Proc.devRef .tc main_arg1) = _
  after_results; exact w4_main_arg1 m ρ c
theorem w5_main_arg2 (c : Dev nD) : W5 m ρ c (Proc.devRef .tc main_arg2) = m ((c : Thread nD τ).loc main_arg2) := by
  show StableHlo.after hostOps2 (W4 m ρ c) (Proc.devRef .tc main_arg2) = _
  after_results; exact w4_main_arg2 m ρ c
theorem w5_main_arg9 (c : Dev nD) : W5 m ρ c (Proc.devRef .tc main_arg9) = m ((c : Thread nD τ).loc main_arg9) := by
  show StableHlo.after hostOps2 (W4 m ρ c) (Proc.devRef .tc main_arg9) = _
  after_results; exact w4_main_arg9 m ρ c
theorem w5_main_arg10 (c : Dev nD) : W5 m ρ c (Proc.devRef .tc main_arg10) = m ((c : Thread nD τ).loc main_arg10) := by
  show StableHlo.after hostOps2 (W4 m ρ c) (Proc.devRef .tc main_arg10) = _
  after_results; exact w4_main_arg10 m ρ c
theorem w5_main_arg11 (c : Dev nD) : W5 m ρ c (Proc.devRef .tc main_arg11) = m ((c : Thread nD τ).loc main_arg11) := by
  show StableHlo.after hostOps2 (W4 m ρ c) (Proc.devRef .tc main_arg11) = _
  after_results; exact w4_main_arg11 m ρ c

/-! ## The first region -/

theorem w1_v18 (c : Dev nD) : W1 m ρ c (Proc.devRef .tc main_v18) = agg (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem w1_v19 (c : Dev nD) : W1 m ρ c (Proc.devRef .tc main_v19) = row128 (m ((c : Thread nD τ).loc main_arg5)) := by
  show StableHlo.after hostOps0 (W0 m ρ c) (Proc.devRef .tc main_v19) = _
  after_results; rfl

/-- The first region leaves the first hidden layer in its result array. -/
theorem w2_v20 (c : Dev nD) : W2 m ρ c (Proc.devRef .tc main_v20)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Layer0.final (V1 m ρ) c).trans ?_)
  show Sage.relu (Sage.lin (D := 128) (W1 m ρ c (Proc.devRef .tc main_arg0)) (W1 m ρ c (Proc.devRef .tc main_v18)) (W1 m ρ c (Proc.devRef .tc main_arg3)) (W1 m ρ c (Proc.devRef .tc main_arg4)) (W1 m ρ c (Proc.devRef .tc main_v19))) = _
  rw [w1_main_arg0, w1_v18, w1_main_arg3, w1_main_arg4, w1_v19]
  rfl

/-! ## The second region -/

theorem w3_v20 (c : Dev nD) : W3 m ρ c (Proc.devRef .tc main_v20) = W2 m ρ c (Proc.devRef .tc main_v20) := by
  show StableHlo.after hostOps1 (W2 m ρ c) (Proc.devRef .tc main_v20) = _
  after_results

theorem w3_v39 (c : Dev nD) : W3 m ρ c (Proc.devRef .tc main_v39) = agg (W2 m ρ c (Proc.devRef .tc main_v20)) (m ((c : Thread nD τ).loc main_arg1)) (m ((c : Thread nD τ).loc main_arg2)) := by
  show StableHlo.after hostOps1 (W2 m ρ c) (Proc.devRef .tc main_v39) = _
  after_results_simp
  rw [w2_main_arg1, w2_main_arg2]; rfl

theorem w3_v40 (c : Dev nD) : W3 m ρ c (Proc.devRef .tc main_v40) = row128 (m ((c : Thread nD τ).loc main_arg8)) := by
  show StableHlo.after hostOps1 (W2 m ρ c) (Proc.devRef .tc main_v40) = _
  after_results
  rw [w2_main_arg8]; rfl

/-- The second region leaves the second hidden layer, of what the first left. -/
theorem w4_v41 (c : Dev nD) : W4 m ρ c (Proc.devRef .tc main_v41)
    = hidden2 (W2 m ρ c (Proc.devRef .tc main_v20)) (m ((c : Thread nD τ).loc main_arg1)) (m ((c : Thread nD τ).loc main_arg2)) (m ((c : Thread nD τ).loc main_arg6)) (m ((c : Thread nD τ).loc main_arg7)) (m ((c : Thread nD τ).loc main_arg8)) := by
  refine (W4_arr m ρ c 5).trans ((Layer1.final (V3 m ρ) c).trans ?_)
  show Sage.relu (Sage.lin (D := 128) (W3 m ρ c (Proc.devRef .tc main_v20)) (W3 m ρ c (Proc.devRef .tc main_v39)) (W3 m ρ c (Proc.devRef .tc main_arg6)) (W3 m ρ c (Proc.devRef .tc main_arg7)) (W3 m ρ c (Proc.devRef .tc main_v40))) = _
  rw [w3_v20, w3_v39, w3_main_arg6, w3_main_arg7, w3_v40]
  rfl

/-! ## The third region -/

theorem w5_v41 (c : Dev nD) : W5 m ρ c (Proc.devRef .tc main_v41) = W4 m ρ c (Proc.devRef .tc main_v41) := by
  show StableHlo.after hostOps2 (W4 m ρ c) (Proc.devRef .tc main_v41) = _
  after_results

theorem w5_v60 (c : Dev nD) : W5 m ρ c (Proc.devRef .tc main_v60) = agg (W4 m ρ c (Proc.devRef .tc main_v41)) (m ((c : Thread nD τ).loc main_arg1)) (m ((c : Thread nD τ).loc main_arg2)) := by
  show StableHlo.after hostOps2 (W4 m ρ c) (Proc.devRef .tc main_v60) = _
  after_results_simp
  rw [w4_main_arg1, w4_main_arg2]; rfl

theorem w5_v61 (c : Dev nD) : W5 m ρ c (Proc.devRef .tc main_v61) = row64 (m ((c : Thread nD τ).loc main_arg11)) := by
  show StableHlo.after hostOps2 (W4 m ρ c) (Proc.devRef .tc main_v61) = _
  after_results
  rw [w4_main_arg11]; rfl

/-- The third region leaves the output layer, of what the second left. -/
theorem w6_v62 (c : Dev nD) : W6 m ρ c (Proc.devRef .tc main_v62)
    = output (W4 m ρ c (Proc.devRef .tc main_v41)) (m ((c : Thread nD τ).loc main_arg1)) (m ((c : Thread nD τ).loc main_arg2)) (m ((c : Thread nD τ).loc main_arg9)) (m ((c : Thread nD τ).loc main_arg10)) (m ((c : Thread nD τ).loc main_arg11)) := by
  refine (W6_arr m ρ c 5).trans ((Layer2.final (V5 m ρ) c).trans ?_)
  show Sage.lin (D := 64) (W5 m ρ c (Proc.devRef .tc main_v41)) (W5 m ρ c (Proc.devRef .tc main_v60)) (W5 m ρ c (Proc.devRef .tc main_arg9)) (W5 m ρ c (Proc.devRef .tc main_arg10)) (W5 m ρ c (Proc.devRef .tc main_v61)) = _
  rw [w5_v41, w5_v60, w5_main_arg9, w5_main_arg10, w5_v61]
  rfl

/-- THE RESULT: the three layers composed, of the launch memory's argument arrays. -/
theorem result (c : Dev nD) : W6 m ρ c (Proc.devRef .tc main_v62)
    = output (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
          (m ((c : Thread nD τ).loc main_arg1)) (m ((c : Thread nD τ).loc main_arg2)) (m ((c : Thread nD τ).loc main_arg6)) (m ((c : Thread nD τ).loc main_arg7)) (m ((c : Thread nD τ).loc main_arg8)))
        (m ((c : Thread nD τ).loc main_arg1)) (m ((c : Thread nD τ).loc main_arg2)) (m ((c : Thread nD τ).loc main_arg9)) (m ((c : Thread nD τ).loc main_arg10)) (m ((c : Thread nD τ).loc main_arg11)) := by
  rw [w6_v62, w4_v41, w2_v20]

end Cert.KernelIdeal.Chain

end
-- ==== Proof.RefLayers.lean ====
/-
  The reference's three layers, each as the layer function of whole arrays.

  The reference computes a layer as (features times self weights, plus the bias row broadcast down the rows), plus
  (neighbourhood means times neighbour weights), followed in the first two layers by the maximum with a zero array.
  Read at entry (p, q) this is (S + b) + N with S and N the two sums over the contracted axis and b the bias entry;
  the layer function is (S + N) + b; the two agree by commutativity and associativity of addition of extended reals.
-/
import proofs.«143584_j55594056680296_1_alg».proof.Proof.Gen.ReferenceIdeal.Read
import proofs.«143584_j55594056680296_1_alg».proof.Proof.Spec

noncomputable section

namespace Cert.ReferenceIdeal.Layers

open Cert.ReferenceIdeal Cert.ReferenceIdeal.Read Idealize.ShloMosaic Idealize.ShloMosaic.ValueIdx

/-! ## The operand indices of the six matrix products and of the bias broadcasts, at (p, q) -/

theorem l19 (p : Fin 50000) (q : Fin 128) (k : Fin 128) : lidx_main_v19 (ix2 p q) k = ix2 p k :=
  funext fun a => by match a with | ⟨0, _⟩ => rfl | ⟨1, _⟩ => rfl
theorem r19 (p : Fin 50000) (q : Fin 128) (k : Fin 128) : ridx_main_v19 (ix2 p q) k = ix2 k q :=
  funext fun a => by match a with | ⟨0, _⟩ => rfl | ⟨1, _⟩ => rfl
theorem l23 (p : Fin 50000) (q : Fin 128) (k : Fin 128) : lidx_main_v23 (ix2 p q) k = ix2 p k :=
  funext fun a => by match a with | ⟨0, _⟩ => rfl | ⟨1, _⟩ => rfl
theorem r23 (p : Fin 50000) (q : Fin 128) (k : Fin 128) : ridx_main_v23 (ix2 p q) k = ix2 k q :=
  funext fun a => by match a with | ⟨0, _⟩ => rfl | ⟨1, _⟩ => rfl
theorem l45 (p : Fin 50000) (q : Fin 128) (k : Fin 128) : lidx_main_v45 (ix2 p q) k = ix2 p k :=
  funext fun a => by match a with | ⟨0, _⟩ => rfl | ⟨1, _⟩ => rfl
theorem r45 (p : Fin 50000) (q : Fin 128) (k : Fin 128) : ridx_main_v45 (ix2 p q) k = ix2 k q :=
  funext fun a => by match a with | ⟨0, _⟩ => rfl | ⟨1, _⟩ => rfl
theorem l49 (p : Fin 50000) (q : Fin 128) (k : Fin 128) : lidx_main_v49 (ix2 p q) k = ix2 p k :=
  funext fun a => by match a with | ⟨0, _⟩ => rfl | ⟨1, _⟩ => rfl
theorem r49 (p : Fin 50000) (q : Fin 128) (k : Fin 128) : ridx_main_v49 (ix2 p q) k = ix2 k q :=
  funext fun a => by match a with | ⟨0, _⟩ => rfl | ⟨1, _⟩ => rfl
theorem l71 (p : Fin 50000) (q : Fin 64) (k : Fin 128) : lidx_main_v71 (ix2 p q) k = ix2 p k :=
  funext fun a => by match a with | ⟨0, _⟩ => rfl | ⟨1, _⟩ => rfl
theorem r71 (p : Fin 50000) (q : Fin 64) (k : Fin 128) : ridx_main_v71 (ix2 p q) k = ix2 k q :=
  funext fun a => by match a with | ⟨0, _⟩ => rfl | ⟨1, _⟩ => rfl
theorem l75 (p : Fin 50000) (q : Fin 64) (k : Fin 128) : lidx_main_v75 (ix2 p q) k = ix2 p k :=
  funext fun a => by match a with | ⟨0, _⟩ => rfl | ⟨1, _⟩ => rfl
theorem r75 (p : Fin 50000) (q : Fin 64) (k : Fin 128) : ridx_main_v75 (ix2 p q) k = ix2 k q :=
  funext fun a => by match a with | ⟨0, _⟩ => rfl | ⟨1, _⟩ => rfl

theorem b21 (p : Fin 50000) (q : Fin 128) : idx_main_v21 (ix2 p q) = ix2 (0 : Fin 1) q :=
  funext fun a => by match a with | ⟨0, _⟩ => rfl | ⟨1, _⟩ => rfl
theorem b47 (p : Fin 50000) (q : Fin 128) : idx_main_v47 (ix2 p q) = ix2 (0 : Fin 1) q :=
  funext fun a => by match a with | ⟨0, _⟩ => rfl | ⟨1, _⟩ => rfl
theorem b73 (p : Fin 50000) (q : Fin 64) : idx_main_v73 (ix2 p q) = ix2 (0 : Fin 1) q :=
  funext fun a => by match a with | ⟨0, _⟩ => rfl | ⟨1, _⟩ => rfl

/-- The zero array the maximum is taken with reads the zero word everywhere. -/
theorem zero0 (i : S50000x128.Idx) : val_main_call0_v0 (F := Ideal) i = Ideal.ofBits .f32 0x00000000#32 := by
  rw [val_main_call0_v0_apply]; rfl
theorem zero1 (i : S50000x128.Idx) : val_main_call1_v0 (F := Ideal) i = Ideal.ofBits .f32 0x00000000#32 := by
  rw [val_main_call1_v0_apply]; rfl

/-! ## The layers -/

/-- The first layer's affine part. -/
theorem affine0 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v24 (F := Ideal) x0 x1 x2 x3 x4 x5
      = Sage.lin (D := 128) x0 (val_main_v18 (F := Ideal) x0 x1 x2) x3 x4 (val_main_v20 (F := Ideal) x5) := by
  funext i
  obtain ⟨p, q, rfl⟩ : ∃ (p : Fin 50000) (q : Fin 128), i = ix2 p q := ⟨i 0, i 1, eq_ix2 i⟩
  rw [val_main_v24_apply, val_main_v22_apply, val_main_v19_apply, val_main_v21_apply, val_main_v23_apply, Sage.lin_apply]
  simp only [l19, r19, l23, r23, b21]
  exact add_right_comm _ _ _

/-- The first layer. -/
theorem layer0 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5
      = Sage.relu (Sage.lin (D := 128) x0 (val_main_v18 (F := Ideal) x0 x1 x2) x3 x4 (val_main_v20 (F := Ideal) x5)) := by
  funext i
  rw [val_main_v25_apply, zero0, affine0]
  rfl

/-- The second layer's affine part, of the first layer's result and its neighbourhood means. -/
theorem affine1 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v50 (F := Ideal) x0 x1 x2 x3 x4 x5 x6 x7 x8
      = Sage.lin (D := 128) (val_main_v25 (F := Ideal) x0 x1 x2 x3 x4 x5) (val_main_v44 (F := Ideal) x0 x1 x2 x3 x4 x5) x6 x7 (val_main_v46 (F := Ideal) x8) := by
  funext i
  obtain ⟨p, q, rfl⟩ : ∃ (p : Fin 50000) (q : Fin 128), i = ix2 p q := ⟨i 0, i 1, eq_ix2 i⟩
  rw [val_main_v50_apply, val_main_v48_apply, val_main_v45_apply, val_main_v47_apply, val_main_v49_apply, Sage.lin_apply]
  simp only [l45, r45, l49, r49, b47]
  exact add_right_comm _ _ _

/-- The second layer. -/
theorem layer1 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8
      = Sage.relu (Sage.lin (D := 128) (val_main_v25 (F := Ideal) x0 x1 x2 x3 x4 x5) (val_main_v44 (F := Ideal) x0 x1 x2 x3 x4 x5) x6 x7 (val_main_v46 (F := Ideal) x8)) := by
  funext i
  rw [val_main_v51_apply, zero1, affine1]
  rfl

/-- The third layer (no maximum), of the second layer's result and its neighbourhood means. -/
theorem layer2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v76 (F := Ideal) x0 x1 x2 x3 x4 x5 x6 x7 x8 x9 x10 x11
      = Sage.lin (D := 64) (val_main_v51 (F := Ideal) x0 x1 x2 x3 x4 x5 x6 x7 x8) (val_main_v70 (F := Ideal) x0 x1 x2 x3 x4 x5 x6 x7 x8) x9 x10 (val_main_v72 (F := Ideal) x11) := by
  funext i
  obtain ⟨p, q, rfl⟩ : ∃ (p : Fin 50000) (q : Fin 64), i = ix2 p q := ⟨i 0, i 1, eq_ix2 i⟩
  rw [val_main_v76_apply, val_main_v74_apply, val_main_v71_apply, val_main_v73_apply, val_main_v75_apply, Sage.lin_apply]
  simp only [l71, r71, l75, r75, b73]
  exact add_right_comm _ _ _

end Cert.ReferenceIdeal.Layers

end
-- ==== Proof.Bridge.lean ====
/-
  The reference computes the same function of the argument arrays as the idealized kernel.

  Layer by layer the reference's stages are the layer function of the previous features and their neighbourhood
  means; its neighbourhood means are spelt with exactly the operations the kernel's host side uses, and its bias row,
  a broadcast of the bias vector to one row, holds the same entries as the kernel's reshape of that vector. So the
  reference's result is the same composition of three layers.
-/
import proofs.«143584_j55594056680296_1_alg».proof.Proof.Chain
import proofs.«143584_j55594056680296_1_alg».proof.Proof.RefLayers
import proofs.«143584_j55594056680296_1_alg».proof.Proof.Gen.ReferenceIdeal.Read
import Idealize.ShloMosaic.Lib.Pipeline.Value

set_option maxRecDepth 16384

noncomputable section

namespace Cert.Bridge

open Idealize.ShloMosaic Idealize.ShloMosaic.ValueIdx
open Cert.ReferenceIdeal Cert.ReferenceIdeal.Read Cert.ReferenceIdeal.Gen
open Cert.KernelIdeal.Chain (agg row128 row64 hidden1 hidden2 output)

/-- A bias vector broadcast to one row holds, at (0, q), entry q: it is the vector reshaped to one row. -/
theorem bias128 (x : (⟨S128, .f32⟩ : BufTy).Contents (Elt Ideal)) :
    broadcastInDim S1x128 ![1] bcast_S128_S1x128_1 x = row128 x := by
  funext i
  have h0 : (i 0).val < 1 := (i 0).isLt
  refine Eq.trans ?_ (shapeCast_apply x Cert.KernelIdeal.Gen.shapeCasts_S128_S1x128 i (ix1 (i 1)) ?_).symm
  · exact broadcastInDim_apply _ bcast_S128_S1x128_1 x i (ix1 (i 1)) (fun a => match a with
      | ⟨0, _⟩ => by show (i 1).val = if (128 : Nat) = 1 then 0 else (i 1).val; rw [if_neg (by decide)])
  · rw [Shape.rowMajor_val_one, Shape.rowMajor_val_two]
    show (i 1).val = (i 0).val * 128 + (i 1).val
    omega

theorem bias64 (x : (⟨S64, .f32⟩ : BufTy).Contents (Elt Ideal)) :
    broadcastInDim S1x64 ![1] bcast_S64_S1x64_1 x = row64 x := by
  funext i
  have h0 : (i 0).val < 1 := (i 0).isLt
  refine Eq.trans ?_ (shapeCast_apply x Cert.KernelIdeal.Gen.shapeCasts_S64_S1x64 i (ix1 (i 1)) ?_).symm
  · exact broadcastInDim_apply _ bcast_S64_S1x64_1 x i (ix1 (i 1)) (fun a => match a with
      | ⟨0, _⟩ => by show (i 1).val = if (64 : Nat) = 1 then 0 else (i 1).val; rw [if_neg (by decide)])
  · rw [Shape.rowMajor_val_one, Shape.rowMajor_val_two]
    show (i 1).val = (i 0).val * 64 + (i 1).val
    omega

/-- The reference's first hidden layer. -/
theorem ref_hidden1 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5 = hidden1 x0 x1 x2 x3 x4 x5 := by
  rw [Layers.layer0]
  show Sage.relu (Sage.lin (D := 128) x0 (agg x0 x1 x2) x3 x4 (broadcastInDim S1x128 ![1] bcast_S128_S1x128_1 x5)) = _
  rw [bias128]; rfl

/-- The reference's second hidden layer, of its first. -/
theorem ref_hidden2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8 = hidden2 (val_main_v25 (F := Ideal) x0 x1 x2 x3 x4 x5) x1 x2 x6 x7 x8 := by
  rw [Layers.layer1]
  show Sage.relu (Sage.lin (D := 128) (val_main_v25 (F := Ideal) x0 x1 x2 x3 x4 x5) (agg (val_main_v25 (F := Ideal) x0 x1 x2 x3 x4 x5) x1 x2) x6 x7 (broadcastInDim S1x128 ![1] bcast_S128_S1x128_1 x8)) = _
  rw [bias128]; rfl

/-- The reference's output layer, of its second hidden layer. -/
theorem ref_output (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v76 (F := Ideal) x0 x1 x2 x3 x4 x5 x6 x7 x8 x9 x10 x11 = output (val_main_v51 (F := Ideal) x0 x1 x2 x3 x4 x5 x6 x7 x8) x1 x2 x9 x10 x11 := by
  rw [Layers.layer2]
  show Sage.lin (D := 64) (val_main_v51 (F := Ideal) x0 x1 x2 x3 x4 x5 x6 x7 x8) (agg (val_main_v51 (F := Ideal) x0 x1 x2 x3 x4 x5 x6 x7 x8) x1 x2) x9 x10 (broadcastInDim S1x64 ![1] bcast_S64_S1x64_1 x11) = _
  rw [bias64]; rfl

/-- THE REFERENCE'S RESULT is the kernel's function of the argument arrays. -/
theorem ref_result (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v76 (F := Ideal) x0 x1 x2 x3 x4 x5 x6 x7 x8 x9 x10 x11
      = output (hidden2 (hidden1 x0 x1 x2 x3 x4 x5) x1 x2 x6 x7 x8) x1 x2 x9 x10 x11 := by
  rw [ref_output, ref_hidden2, ref_hidden1]

end Cert.Bridge

end
-- ==== Proof.lean ====
/-
  Three layers of mean-aggregation graph convolution over 50000 nodes and 800000 edges: the kernel against its
  reference, over the extended reals.

  Both programs compute, three times over, the neighbourhood means of the current node features (rows gathered at
  the source indices, summed by destination, divided by the in-degree taken as at least one) with the same host
  operations, and then a layer: features times self weights, neighbourhood means times neighbour weights, a bias
  row, and in the first two layers the maximum with zero. The kernel computes each layer in a region of ten row
  blocks and adds the two products before the bias; the reference adds the bias to the first product before the
  second. At every entry these are the same three extended reals added in two orders, and addition of extended reals
  is commutative and associative, so no finiteness of the inputs is used. Every row block is the restriction of the
  layer of the whole arrays, and the blocks tile the rows, so each region leaves the layer of the arrays it found;
  composing through the program gives one function of the argument arrays on both sides.

  The word-level kernel and its idealization differ in no operation, so that the second is the first's idealization
  holds trivially; the three frames are the generated frame proofs and the reference's generated run.
-/
import proofs.«143584_j55594056680296_1_alg».proof.Defs
import proofs.«143584_j55594056680296_1_alg».proof.Proof.Gen.Kernel
import proofs.«143584_j55594056680296_1_alg».proof.Proof.Gen.Kernel.Skeleton
import proofs.«143584_j55594056680296_1_alg».proof.Proof.Gen.Kernel.Launch
import proofs.«143584_j55594056680296_1_alg».proof.Proof.Gen.Kernel.Points
import proofs.«143584_j55594056680296_1_alg».proof.Proof.Gen.Kernel.Frame
import proofs.«143584_j55594056680296_1_alg».proof.Proof.Gen.KernelIdeal
import proofs.«143584_j55594056680296_1_alg».proof.Proof.Gen.KernelIdeal.Skeleton
import proofs.«143584_j55594056680296_1_alg».proof.Proof.Gen.KernelIdeal.Launch
import proofs.«143584_j55594056680296_1_alg».proof.Proof.Gen.KernelIdeal.Points
import proofs.«143584_j55594056680296_1_alg».proof.Proof.Gen.KernelIdeal.Frame
import proofs.«143584_j55594056680296_1_alg».proof.Proof.Gen.ReferenceIdeal
import proofs.«143584_j55594056680296_1_alg».proof.Proof.Gen.Pre_finite_inputs
import proofs.«143584_j55594056680296_1_alg».proof.Proof.Gen.ReferenceIdeal.Run
import proofs.«143584_j55594056680296_1_alg».proof.Proof.Gen.ReferenceIdeal.Read
import proofs.«143584_j55594056680296_1_alg».proof.Proof.RunAll
import proofs.«143584_j55594056680296_1_alg».proof.Proof.Chain
import proofs.«143584_j55594056680296_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories agreeing on the arguments, both programs end with the three layers composed, of those
    arguments, in their result arrays. -/
theorem algebraic : Cert.algebraic_KernelIdeal_ReferenceIdeal := by
  intro m ρ m' ρ' _ hagree
  refine ⟨_, Cert.KernelIdeal.RunAll.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v76_eq, e0, e1, e2, e3, e4, e5, e6, e7, e8, e9, e10, e11, Cert.Bridge.ref_result]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
